-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S2048x2048 : Shape := ⟨2, ![2048, 2048]⟩
abbrev S2048 : Shape := ⟨1, ![2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8x2048x2048 .f32) (main_arg1 : FVec F S2048x2048 .f32) (main_arg2 : FVec F S2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8x2048x2048 : Shape := ⟨3, ![8, 2048, 2048]⟩
abbrev S2048x2048 : Shape := ⟨2, ![2048, 2048]⟩
abbrev S2048 : Shape := ⟨1, ![2048]⟩
abbrev S16384x2048 : Shape := ⟨2, ![16384, 2048]⟩
abbrev S1x2048 : Shape := ⟨2, ![1, 2048]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S8x2048x2048, .f32⟩
  | .hbm, ⟨1, _⟩ => ⟨S2048x2048, .f32⟩
  | .hbm, ⟨2, _⟩ => ⟨S2048, .f32⟩
  | .hbm, ⟨3, _⟩ => ⟨S16384x2048, .f32⟩
  | .hbm, ⟨4, _⟩ => ⟨S1x2048, .f32⟩
  | .hbm, ⟨5, _⟩ => ⟨S2048x2048, .bf16⟩
  | .hbm, ⟨6, _⟩ => ⟨S2048x1, .f32⟩
  | .hbm, ⟨7, _⟩ => ⟨S1x2048, .f32⟩
  | .hbm, ⟨8, _⟩ => ⟨S16384x2048, .f32⟩
  | .hbm, ⟨9, _⟩ => ⟨S8x2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x1, .f32⟩
  | .local _ .vmem, ⟨5, _⟩ => ⟨S256x1, .f32⟩
  | .local _ .vmem, ⟨6, _⟩ => ⟨S512x2048, .f32⟩
  | .local _ .vmem, ⟨7, _⟩ => ⟨S512x2048, .f32⟩
  | .local _ .vmem, ⟨8, _⟩ => ⟨S2048x2048, .bf16⟩
  | .local _ .vmem, ⟨9, _⟩ => ⟨S1x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2_0 : Ref sig .tc := ⟨.hbm, 5, rfl⟩
abbrev main_call0_v2_1 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S8x2048x2048_S16384x2048 : S8x2048x2048.ShapeCasts S16384x2048
  shapeCasts_S2048_S1x2048 : S2048.ShapeCasts S1x2048
  transposes_S2048x1_S1x2048_1_0 : S2048x1.Transposes [1, 0] S1x2048
  shapeCasts_S16384x2048_S8x2048x2048 : S16384x2048.ShapeCasts S8x2048x2048
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  shapeCasts_S256_S256x1 : S256.ShapeCasts S256x1
  broadcasts_S256x1_S256x2048 : S256x1.Broadcasts S256x2048
  bitsLt_bf16_f32 : FTy.bits .bf16 < FTy.bits .f32
  packedbf16_S256x2048_S256x2048_0_0 : (Rect.unit (s := S256x2048) ![0, 0] S256x2048.size inb_S256x2048_S256x2048_0_0).PackedRows (EltTy.packing .bf16)
  inb_S256x1_S256x1_0_0 : ∀ a, (![0, 0] : Fin 2 → Nat) a + S256x1.size a ≤ S256x1.size a
  h_S256x1 : 0 < S256x1.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S512x2048_S512 : S512x2048.Reduces [1] S512
  shapeCasts_S512_S512x1 : S512.ShapeCasts S512x1
  broadcasts_S512x1_S512x2048 : S512x1.Broadcasts S512x2048
  broadcasts_S1x2048_S512x2048 : S1x2048.Broadcasts S512x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .bf16 = 32 ∨ (Rect.block (s := S2048x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S2048x1.size a
  hwx0_2 : ∀ i : grid0.Coords, EltTy.bits .f32 = 32 ∨ (Rect.block (s := S2048x1) S256x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x2048.size a
  hwx1_0 : ∀ i : grid1.Coords, EltTy.bits .f32 = 32 ∨ (Rect.block (s := S16384x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x2048.size a ≤ S16384x2048.size a
  hwx1_4 : ∀ i : grid1.Coords, EltTy.bits .f32 = 32 ∨ (Rect.block (s := S16384x2048) S512x2048.size (cc1_transform_4 i) (hinb1_4 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2_0) S256x2048.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2_1) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v2_0) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v3) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v1) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v4) S512x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x2048x2048 : Shape := ⟨3, ![8, 2048, 2048]⟩
abbrev S2048x2048 : Shape := ⟨2, ![2048, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S2048x1 : Shape := ⟨2, ![2048, 1]⟩
abbrev S1x1x2048 : Shape := ⟨3, ![1, 1, 2048]⟩

abbrev nBuf : Space → Nat
  | .hbm => 68
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x2048, .f32⟩
  | .hbm, ⟨2, _⟩ => ⟨S2048, .f32⟩
  | .hbm, ⟨3, _⟩ => ⟨S8x2048x2048, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S2048x2048, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S8x2048x1, .f32⟩
  | .hbm, ⟨41, _⟩ => ⟨S_, .f32⟩
  | .hbm, ⟨42, _⟩ => ⟨S8x2048x1, .f32⟩
  | .hbm, ⟨43, _⟩ => ⟨S8x2048x1, .f32⟩
  | .hbm, ⟨44, _⟩ => ⟨S_, .f32⟩
  | .hbm, ⟨45, _⟩ => ⟨S8x2048x1, .f32⟩
  | .hbm, ⟨46, _⟩ => ⟨S8x2048x1, .f32⟩
  | .hbm, ⟨47, _⟩ => ⟨S8x2048x2048, .f32⟩
  | .hbm, ⟨48, _⟩ => ⟨S8x2048x2048, .f32⟩
  | .hbm, ⟨49, _⟩ => ⟨S8x2048x2048, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S8x2048x2048, .f32⟩
  | .hbm, ⟨54, _⟩ => ⟨S8x2048x2048, .f32⟩
  | .hbm, ⟨55, _⟩ => ⟨S_, .f32⟩
  | .hbm, ⟨56, _⟩ => ⟨S8x2048x2048, .f32⟩
  | .hbm, ⟨57, _⟩ => ⟨S8x2048x2048, .f32⟩
  | .hbm, ⟨58, _⟩ => ⟨S8x2048x2048, .f32⟩
  | .hbm, ⟨59, _⟩ => ⟨S2048, .f32⟩
  | .hbm, ⟨60, _⟩ => ⟨S1x1x2048, .f32⟩
  | .hbm, ⟨61, _⟩ => ⟨S8x2048x2048, .f32⟩
  | .hbm, ⟨62, _⟩ => ⟨S8x2048x2048, .f32⟩
  | .hbm, ⟨63, _⟩ => ⟨S8x2048x2048, .f32⟩
  | .hbm, ⟨64, _⟩ => ⟨S8x2048x2048, .f32⟩
  | .hbm, ⟨65, _⟩ => ⟨S1x1x2048, .f32⟩
  | .hbm, ⟨66, _⟩ => ⟨S8x2048x2048, .f32⟩
  | .hbm, ⟨67, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_cst_6 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_cst_11 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x2048_0_1_2 : S8x2048x1.BroadcastsInDim S8x2048x2048 (![0, 1, 2] : Fin 3 → Fin S8x2048x2048.rank)
  reducesTo_S2048x2048_S2048_d1 : S2048x2048.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  bcast_S_S8x2048x2048 : S_.BroadcastsInDim S8x2048x2048 (![] : Fin 0 → Fin S8x2048x2048.rank)
  shapeCasts_S2048x1_S2048 : S2048x1.ShapeCasts S2048
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  dot_S8x2048x2048_S2048x2048_S8x2048x2048_2_1_01_0_n_n_wf : DotDims.WF S8x2048x2048 S2048x2048 S8x2048x2048 [2] [1] [0, 1] [0] [] []

variable [Facts₀]

def dot_S8x2048x2048_S2048x2048_S8x2048x2048_2_1_01_0_n_n : DotDims S8x2048x2048 S2048x2048 S8x2048x2048 where
  lhsContracting := [2]
  rhsContracting := [1]
  lhsNonContracting := [0, 1]
  rhsNonContracting := [0]
  lhsBatch := []
  rhsBatch := []
  wf := dot_S8x2048x2048_S2048x2048_S8x2048x2048_2_1_01_0_n_n_wf

class Facts : Prop extends Facts₀ where

variable [Facts]
-- ==== Proof.RunValue.lean ====
/-
  The idealized kernel's run with its result named.

  @main is five segments: two reshapes of the arguments, the weight-quantization region, a transpose of the per-row
  scales, the fused normalize-quantize-multiply region, and a reshape of its output. The segment-by-segment launch
  ends with every unscoped buffer at the contents the last boundary names (the fold through the segments); read at the
  result buffer this gives the result array, and read at the three arguments it gives them back unchanged.
-/
import proofs.«180496_j51969104281929_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents, and the three arguments end as launched. -/
theorem run : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.RunValue

end
-- ==== Proof.RowSpec.lean ====
/-
  The mathematics of the quantized linear layer, row by row, on the extended reals.

  For a weight row `w` (2048 entries): its scale is the mean of the absolute values, `absMean w`, and its ternary
  form `ternary w k` is `w k` times the reciprocal of `absMean w + ε`, rounded half to even and clamped to [-1, 1].
  For an activation row `x`: `meanSq x` is the mean of squares plus ε, `normed x k = x k · (meanSq x)^(-1/2)`,
  `scale x` is the largest `|normed x k|` divided by 127, and `quant x k` is `normed x k` times the reciprocal of
  `scale x + ε`, rounded half to even and clamped to [-127, 127]. The layer's entry for activation row `x` and
  weight row `w` is `(∑ k, quant x k · ternary w k) · absMean w · scale x + b`.

  Two laws let a quotient be written as a product with a reciprocal: `a · (1 / y) = a / y` whenever `y ≠ 0`, and
  `a · y^(-1/2) = a / √y` whenever `0 < y` (at `y = +∞` both sides are `a · 0`). Every divisor they are used at is a
  nonnegative quantity plus the positive constant ε, so no finiteness of the inputs is needed.
-/
import Idealize.ShloMosaic.PureOps.Ideal
import Idealize.ShloMosaic.PureOps.Ideal.Laws
import Mathlib.Data.Finset.Fold

noncomputable section

namespace Cert.QuantLinear

open Idealize.ShloMosaic

/-! ## The constants the two programs spell -/

/-- The constant added under every quotient, `f32(1e-8)`. -/
abbrev eps : EReal := Ideal.ofBits .f32 0x322BCC77#32
/-- `2048.0`, the length of a row. -/
abbrev cLen : EReal := Ideal.ofBits .f32 0x45000000#32
/-- `127.0` and `-127.0`, the activation range. -/
abbrev cQ : EReal := Ideal.ofBits .f32 0x42FE0000#32
abbrev cNegQ : EReal := Ideal.ofBits .f32 0xC2FE0000#32
/-- `1.0` and `-1.0`, the weight range (and the numerator of each reciprocal). -/
abbrev cOne : EReal := Ideal.ofBits .f32 0x3F800000#32
abbrev cNegOne : EReal := Ideal.ofBits .f32 0xBF800000#32
/-- `-∞`, from which a row's maximum is taken. -/
abbrev cNegInf : EReal := Ideal.ofBits .f32 0xFF800000#32

theorem cLen_eq : cLen = ((2048 : ℝ) : EReal) := by
  simp [cLen, Ideal.ofBits, Ideal.ieee, -EReal.coe_mul]; norm_num
theorem cQ_eq : cQ = ((127 : ℝ) : EReal) := by
  simp [cQ, Ideal.ofBits, Ideal.ieee, -EReal.coe_mul]; norm_num
theorem cOne_eq : cOne = 1 := by
  simp [cOne, Ideal.ofBits, Ideal.ieee, -EReal.coe_mul]; norm_num
theorem cNegInf_eq : cNegInf = ⊥ := by
  simp [cNegInf, Ideal.ofBits, Ideal.ieee]
theorem eps_pos : (0 : EReal) < eps := by
  simp [eps, Ideal.ofBits, Ideal.ieee, -EReal.coe_mul]

/-! ## Quotients as products with a reciprocal -/

/-- Off zero, multiplying by the reciprocal is dividing. -/
theorem mul_div_one {a y : EReal} (hy : y ≠ 0) : a * Ideal.div cOne y = Ideal.div a y := by
  rw [cOne_eq]; simp only [Ideal.div, if_neg hy, one_mul]

/-- Above zero, multiplying by the reciprocal square root is dividing by the square root. -/
theorem mul_rsqrt {a y : EReal} (hy : 0 < y) : a * Ideal.rsqrt y = Ideal.div a (Ideal.sqrt y) := by
  induction y using EReal.rec with
  | bot => exact absurd hy (by simp)
  | top => simp [Ideal.div]
  | coe r =>
    have hr : 0 < r := by exact_mod_cast hy
    have hs : Real.sqrt r ≠ 0 := (Real.sqrt_pos.mpr hr).ne'
    have h0 : ¬ r < 0 := not_lt.mpr hr.le
    rw [Ideal.rsqrt_coe, Ideal.sqrt_coe]
    simp only [if_neg h0, if_neg hr.ne', Ideal.div]
    rw [if_neg (by exact_mod_cast hs), EReal.coe_inv]

/-! ## Signs -/

theorem abs_nonneg (a : EReal) : 0 ≤ max a (-a) := by
  rcases le_total 0 a with h | h
  · exact le_max_of_le_left h
  · exact le_max_of_le_right (by simpa using EReal.neg_le_neg_iff.mpr h)

theorem mul_self_nonneg (a : EReal) : 0 ≤ a * a := by
  induction a using EReal.rec with
  | bot => simp
  | top => simp
  | coe r => rw [← EReal.coe_mul]; exact_mod_cast _root_.mul_self_nonneg r

theorem div_nonneg {a : EReal} {c : ℝ} (ha : 0 ≤ a) (hc : 0 < c) : 0 ≤ Ideal.div a (c : EReal) := by
  rw [Ideal.div_coe hc.ne']
  exact mul_nonneg ha (by exact_mod_cast (one_div_pos.mpr hc).le)

theorem add_eps_pos {a : EReal} (ha : 0 ≤ a) : 0 < a + eps :=
  lt_of_lt_of_le eps_pos (le_add_of_nonneg_left ha)

/-! ## The layer, row by row -/

/-- Rounding to the nearest integer, ties to even. -/
def rne (a : EReal) : EReal := Ideal.liftRound Ideal.roundHalfEven a

/-- The mean absolute value of a weight row. -/
def absMean (w : Fin 2048 → EReal) : EReal := Ideal.div (∑ k, max (w k) (-(w k))) cLen

/-- A weight row scaled by the reciprocal of its mean absolute value (plus ε), rounded and clamped to [-1, 1]. -/
def ternary (w : Fin 2048 → EReal) (k : Fin 2048) : EReal :=
  min cOne (max cNegOne (rne (w k * Ideal.div cOne (absMean w + eps))))

/-- The mean square of an activation row, plus ε. -/
def meanSq (x : Fin 2048 → EReal) : EReal := Ideal.div (∑ k, x k * x k) cLen + eps

/-- The row divided by its root mean square. -/
def normed (x : Fin 2048 → EReal) (k : Fin 2048) : EReal := x k * Ideal.rsqrt (meanSq x)

/-- The largest absolute value of the normalized row, over 127. -/
def scale (x : Fin 2048 → EReal) : EReal :=
  Ideal.div ((Finset.univ : Finset (Fin 2048)).fold max cNegInf fun k => max (normed x k) (-(normed x k))) cQ

/-- The normalized row scaled by the reciprocal of its scale (plus ε), rounded and clamped to [-127, 127]. -/
def quant (x : Fin 2048 → EReal) (k : Fin 2048) : EReal :=
  min cQ (max cNegQ (rne (normed x k * Ideal.div cOne (scale x + eps))))

/-- One entry of the layer from a quantized weight row `wq` with its scale `g`: the integer product, rescaled, plus the bias. -/
def entry (x wq : Fin 2048 → EReal) (g b : EReal) : EReal :=
  (∑ k, quant x k * wq k) * g * scale x + b

/-! ## The same quantities written with quotients -/

theorem absMean_nonneg (w : Fin 2048 → EReal) : 0 ≤ absMean w := by
  unfold absMean; rw [cLen_eq]
  exact div_nonneg (Finset.sum_nonneg fun k _ => abs_nonneg (w k)) (by norm_num)

theorem ternary_eq_div (w : Fin 2048 → EReal) (k : Fin 2048) :
    min cOne (max cNegOne (rne (Ideal.div (w k) (absMean w + eps)))) = ternary w k := by
  unfold ternary; rw [mul_div_one (add_eps_pos (absMean_nonneg w)).ne']

theorem meanSq_pos (x : Fin 2048 → EReal) : 0 < meanSq x := by
  unfold meanSq; rw [cLen_eq]
  exact add_eps_pos (div_nonneg (Finset.sum_nonneg fun k _ => mul_self_nonneg (x k)) (by norm_num))

theorem normed_eq_div (x : Fin 2048 → EReal) (k : Fin 2048) :
    Ideal.div (x k) (Ideal.sqrt (meanSq x)) = normed x k := by
  unfold normed; rw [mul_rsqrt (meanSq_pos x)]

theorem scale_nonneg (x : Fin 2048 → EReal) : 0 ≤ scale x := by
  unfold scale; rw [cQ_eq]
  refine div_nonneg ?_ (by norm_num)
  exact (Finset.le_fold_max (0 : EReal)).2 (Or.inr ⟨0, Finset.mem_univ _, abs_nonneg _⟩)

theorem quant_eq_div (x : Fin 2048 → EReal) (k : Fin 2048) :
    min cQ (max cNegQ (rne (Ideal.div (normed x k) (scale x + eps)))) = quant x k := by
  unfold quant; rw [mul_div_one (add_eps_pos (scale_nonneg x)).ne']

end Cert.QuantLinear

end
-- ==== Proof.LibRows.lean ====
/-
  General lemmas about arrays with a kept unit column, read at an index, and about reductions along the last axis of a
  matrix, read at a row.

  * A vector of length `a` cast to a column `[a, 1]` holds at `(i, 0)` the vector's entry `i`.
  * A column `[a, 1]` broadcast to `[a, b]` holds at `(p, c)` the column's entry `p`.
  * Reducing a matrix `[a, b]` along its second axis, the reduced index `p` with coordinate `k` put back is `(p, k)`;
    so at the extended reals a row sum is `∑ k, v (p, k)` and a row maximum is the fold of `max` over `k ↦ v (p, k)`.
  * The same for a stack of matrices `[n, a, b]` reduced along its last axis by the host's reduction.
-/
import Idealize.ShloMosaic.Lib.Pipeline.Value
import Idealize.ShloMosaic.Lib.ValueIdx
import Idealize.ShloMosaic.PureOps.Ideal.Laws

noncomputable section

namespace Cert.LibRows

open Idealize.ShloMosaic Idealize.ShloMosaic.ValueIdx

variable {α : Type}

/-- A vector cast to a column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along a new second axis reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing `[a, b]` along its second axis: row `p` with coordinate `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- Reducing `[n, a, b]` along its last axis: `(i, p)` with coordinate `k` put back is `(i, p, k)`. -/
theorem lift_row3 {n a b : ℕ} (h : (⟨3, ![n, a, b]⟩ : Shape).Reduces [2] (⟨2, ![n, a]⟩ : Shape)) (i : Fin n) (p : Fin a)
    (k : Fin ((⟨3, ![n, a, b]⟩ : Shape).size 2)) : h.lift (ix2 i p) k = ix3 i p (⟨k.val, k.isLt⟩ : Fin b) := by
  funext c; apply Fin.ext
  fin_cases c <;> rfl

variable {φ : FTy}

/-- A lane sum along the second axis, at row `p`, is the sum of the row. -/
theorem rowSum_apply {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ v acc h hφ hacc (ix1 p) = ∑ k : Fin b, v (ix2 p k) := by
  rw [Ideal.multiReduction_add_single]
  exact Finset.sum_congr rfl fun k _ => congrArg v (lift_row h p k)

/-- A lane maximum along the second axis, at row `p`, is the fold of `max` over the row from the accumulator's value. -/
theorem rowMax_apply {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ v acc h hφ hacc (ix1 p)
      = (Finset.univ : Finset (Fin b)).fold max (Ideal.ofBits φ acc) fun k => v (ix2 p k) := by
  rw [Ideal.multiReduction_maximumf_single]
  exact congrArg (fun f => Finset.fold max (Ideal.ofBits φ acc) f (Finset.univ : Finset (Fin b)))
    (funext fun k => congrArg v (lift_row h p k))

/-- The host's reduction with a maximum body along the last axis of `[n, a, b]`, at `(i, p)`: the fold of `max` over
    that row from the initial value. -/
theorem hostRowMax3_apply {n a b : ℕ} {u : Shape} (x : FVec Ideal ⟨3, ![n, a, b]⟩ φ) (init : u.Idx → Ideal φ)
    (h' : (⟨3, ![n, a, b]⟩ : Shape).ReducesTo [2] (⟨2, ![n, a]⟩ : Shape))
    (h : (⟨3, ![n, a, b]⟩ : Shape).Reduces [2] (⟨2, ![n, a]⟩ : Shape)) (hu : 0 < u.numel) (i : Fin n) (p : Fin a) :
    Host.reduce FloatOps.maximumf x init h' hu (ix2 i p)
      = (Finset.univ : Finset (Fin b)).fold max (init (Shape.Idx.first hu)) fun k => x (ix3 i p k) := by
  rw [Host.reduce_eq_fold_single FloatOps.maximumf x init h' h hu]
  exact congrArg (fun f => Finset.fold max (init (Shape.Idx.first hu)) f (Finset.univ : Finset (Fin b)))
    (funext fun k => congrArg x (lift_row3 h i p k))

end Cert.LibRows

end
-- ==== Proof.WeightBlock.lean ====
/-
  The weight-quantization kernel's two stored values, read at an index of the block it loads.

  The body loads a block of 256 weight rows. What it stores into the scale window at row `p` is that row's mean
  absolute value; what it stores into the quantized-weight window at `(p, q)` is entry `q` of the row's ternary form:
  the entry times the reciprocal of (mean absolute value + ε), rounded half to even, clamped to [-1, 1] (the final
  narrowing to bf16 is the identity on the extended reals).
-/
import proofs.«180496_j51969104281929_2_alg».proof.Proof.Gen.KernelIdeal.Skeleton
import proofs.«180496_j51969104281929_2_alg».proof.Proof.RowSpec
import proofs.«180496_j51969104281929_2_alg».proof.Proof.LibRows

noncomputable section

namespace Cert.KernelIdeal.WeightBlock

open Cert.KernelIdeal Cert.KernelIdeal.Gen Cert.QuantLinear Cert.LibRows
open Idealize.ShloMosaic Idealize.ShloMosaic.ValueIdx

/-- The block's lane sum at row `p` is the sum of that row. -/
theorem rowSum256 (v : FVec Ideal S256x2048 .f32) (p : Fin 256) :
    multiReduction .add [1] S256 v 0x00000000#32 reduces_S256x2048_S256 (.inl rfl) rfl (ix1 p) = ∑ k : Fin 2048, v (ix2 p k) :=
  rowSum_apply v 0x00000000#32 reduces_S256x2048_S256 (.inl rfl) rfl p

/-- The scale window's payload at row `p`: the mean absolute value of row `p` of the loaded block. -/
theorem pay_absMean (x0 : Vec Ideal S256x2048 .f32) (p : Fin 256) (u : Fin 1) :
    k0_pay1 (F := Ideal) x0 (ix2 p u) = absMean fun k => x0 (ix2 p k) := by
  unfold k0_pay1 absMean
  dsimp only
  rw [divf_apply, broadcast_apply, shapeCast_a_a1_apply, rowSum256]
  rfl

/-- The quantized-weight window's payload at `(p, q)`: entry `q` of the ternary form of row `p`. -/
theorem pay_ternary (x0 : Vec Ideal S256x2048 .f32) (p : Fin 256) (q : Fin 2048) :
    k0_pay2 (F := Ideal) x0 (ix2 p q) = ternary (fun k => x0 (ix2 p k)) q := by
  unfold k0_pay2 ternary
  dsimp only
  show min cOne (max cNegOne (rne (x0 (ix2 p q) *
    broadcastTo S256x2048 (divf (broadcast S256x1 (FloatOps.ofBits .f32 0x3F800000#32))
      (addf (k0_pay1 x0) (broadcast S256x1 (FloatOps.ofBits .f32 0x322BCC77#32)))) broadcasts_S256x1_S256x2048 (ix2 p q)))) = _
  rw [broadcastTo_a1_ab_apply, divf_apply, addf_apply, broadcast_apply, broadcast_apply, pay_absMean]
  rfl

end Cert.KernelIdeal.WeightBlock

end
-- ==== Proof.WeightArrays.lean ====
/-
  The weight-quantization region's two output arrays after the run, as whole-array functions of the weight.

  The grid has 8 points; point `t` loads rows `256 t … 256 t + 255` of the weight and writes back the same rows of the
  quantized weight and of the scale column. What point `t` writes back is therefore its block of ONE function of the
  whole weight array: entry `(n, k)` of the quantized weight is entry `k` of the ternary form of weight row `n`, and entry
  `(n, 0)` of the scale column is the mean absolute value of weight row `n`. The 8 blocks tile the arrays (row `n` is in
  block `n / 256`), so after the run each array is that function everywhere.
-/
import proofs.«180496_j51969104281929_2_alg».proof.Proof.Gen.KernelIdeal.Frame
import proofs.«180496_j51969104281929_2_alg».proof.Proof.WeightBlock

noncomputable section

namespace Cert.KernelIdeal.WeightArrays

open Cert.KernelIdeal Cert.KernelIdeal.Gen Cert.KernelIdeal.WeightBlock Cert.QuantLinear
open Idealize.ShloMosaic Idealize.ShloMosaic.TcCoe Idealize.ShloMosaic.ValueIdx Idealize.SL.Sem
open Idealize.ShloMosaic.Pipeline (Dat)

set_option maxRecDepth 16384

/-- The quantized weight as a function of the weight: entry `(n, k)` is entry `k` of the ternary form of row `n`. -/
def ternArr (A : S2048x2048.Idx → Elt Ideal .f32) : S2048x2048.Idx → Elt Ideal .bf16 := fun i =>
  ternary (fun k => A (ix2 (⟨(i 0).val, (i 0).isLt⟩ : Fin 2048) k)) (⟨(i 1).val, (i 1).isLt⟩ : Fin 2048)

/-- The scale column as a function of the weight: entry `(n, 0)` is the mean absolute value of row `n`. -/
def scaleArr (A : S2048x2048.Idx → Elt Ideal .f32) : S2048x1.Idx → Elt Ideal .f32 := fun i =>
  absMean fun k => A (ix2 (⟨(i 0).val, (i 0).isLt⟩ : Fin 2048) k)

/-! ## One point's stored values against the whole-array functions -/

/-- If row `j 0` of the loaded block is row `i 0` of the weight and `j`, `i` have the same column, the quantized payload at
    `j` is the quantized weight at `i`. -/
theorem tern_point (A : S2048x2048.Idx → Elt Ideal .f32) (x0 : Vec Ideal S256x2048 .f32) (j : S256x2048.Idx) (i : S2048x2048.Idx)
    (hx : ∀ k : Fin 2048, x0 (ix2 (⟨(j 0).val, (j 0).isLt⟩ : Fin 256) k) = A (ix2 (⟨(i 0).val, (i 0).isLt⟩ : Fin 2048) k))
    (hq : (j 1).val = (i 1).val) : k0_pay2 (F := Ideal) x0 j = ternArr A i := by
  obtain ⟨p, q, rfl⟩ : ∃ (p : Fin 256) (q : Fin 2048), j = ix2 p q := ⟨j 0, j 1, eq_ix2 j⟩
  rw [pay_ternary]
  unfold ternArr
  have e1 : (fun k => x0 (ix2 p k)) = fun k => A (ix2 (⟨(i 0).val, (i 0).isLt⟩ : Fin 2048) k) := funext hx
  have e2 : q = (⟨(i 1).val, (i 1).isLt⟩ : Fin 2048) := Fin.ext hq
  rw [e1, e2]

/-- If row `j 0` of the loaded block is row `i 0` of the weight, the scale payload at `j` is the scale column at `i`. -/
theorem scale_point (A : S2048x2048.Idx → Elt Ideal .f32) (x0 : Vec Ideal S256x2048 .f32) (j : S256x1.Idx) (i : S2048x1.Idx)
    (hx : ∀ k : Fin 2048, x0 (ix2 (⟨(j 0).val, (j 0).isLt⟩ : Fin 256) k) = A (ix2 (⟨(i 0).val, (i 0).isLt⟩ : Fin 2048) k)) :
    k0_pay1 (F := Ideal) x0 j = scaleArr A i := by
  obtain ⟨p, u, rfl⟩ : ∃ (p : Fin 256) (u : Fin 1), j = ix2 p u := ⟨j 0, j 1, eq_ix2 j⟩
  rw [pay_absMean]
  unfold scaleArr
  exact congrArg absMean (funext hx)

/-! ## The index maps over the grid -/

theorem hz : (![0, 0] : Fin 2 → Nat) = fun _ => 0 := funext fun a => by fin_cases a <;> rfl

/-- The three windows move together down the rows and stay at column block 0; there are 8 row blocks. -/
theorem idx_facts : ∀ t : Fin cfg0.N, win0_0.index t (0 : Fin 2) = win0_1.index t (0 : Fin 2)
    ∧ win0_0.index t (1 : Fin 2) = 0 ∧ win0_1.index t (1 : Fin 2) = 0
    ∧ win0_2.index t (0 : Fin 2) = win0_1.index t (0 : Fin 2) ∧ win0_2.index t (1 : Fin 2) = 0
    ∧ win0_1.index t (0 : Fin 2) ≤ 7 :=
  (by decide +kernel : ∀ t : Fin grid0.N, _)

/-- Every row block is some point's. -/
theorem idx_onto : ∀ q0 : Fin 8, ∃ t : Fin cfg0.N, win0_1.index t (0 : Fin 2) = q0.val :=
  (by decide +kernel : ∀ q0 : Fin 8, ∃ t : Fin grid0.N, win0_1.index t (0 : Fin 2) = q0.val)

variable (V : (c : Dev nD) → (b : Ref sig .tc) → Buf (Elt Ideal) ((c : Thread nD τ).loc b))

/-! ## The quantized weight (window 1) -/

/-- What point `t` writes back into the quantized weight is its block of `ternArr` of the weight. -/
theorem flushed_tern (c : Dev nD) (t : Fin cfg0.N) :
    (dat0 V c).flushed 1 t = ((cfg0.win 1).blk t).view.read (Elt Ideal) (ternArr (V c main_arg1)) := by
  show (cfg0.win 1).cut (grid0.coords t) ((dat0 V c).after 1 t) = _
  rw [after0_1]
  unfold out0_1
  rw [View.canon_unit_zero hz]
  simp only [View.ld_unit_zero (S := S256x2048) hz]
  obtain ⟨e0, e1, e2, e3, e4, e5⟩ := idx_facts t
  funext j
  show k0_pay2 (iblk0 V c 0 t) j = ternArr (V c main_arg1) (((cfg0.win 1).blk t).view.emb j)
  refine tern_point (V c main_arg1) (iblk0 V c 0 t) j _ (fun k => ?_) ?_
  · show V c main_arg1 (((cfg0.win 0).blk t).view.emb (ix2 (⟨(j 0).val, (j 0).isLt⟩ : Fin 256) k)) = _
    refine congrArg (V c main_arg1) (funext fun a => Fin.ext ?_)
    match a with
    | ⟨0, _⟩ => show win0_0.index t (0 : Fin 2) * 256 + 1 * (j 0).val = win0_1.index t (0 : Fin 2) * 256 + 1 * (j 0).val; omega
    | ⟨1, _⟩ => show win0_0.index t (1 : Fin 2) * 2048 + 1 * k.val = k.val; omega
  · show (j 1).val = win0_1.index t (1 : Fin 2) * 2048 + 1 * (j 1).val; omega

theorem mem_blk_tern (t : Fin cfg0.N) (i : S2048x2048.Idx) :
    i ∈ ((cfg0.win 1).blk t).view.set ↔ ∀ a : Fin 2, win0_1.index t a * S256x2048.size a ≤ (i a).val ∧ (i a).val < win0_1.index t a * S256x2048.size a + S256x2048.size a := by
  show i ∈ ((View.whole main_call0_v2_0).slice (win0_1.rect t)).set ↔ _
  rw [View.set_slice_whole, Rect.mem_set_unit]
  exact Iff.rfl

theorem cover_tern (i : S2048x2048.Idx) : ∃ t : Fin cfg0.N, (cfg0.win 1).flush t = true ∧ i ∈ ((cfg0.win 1).blk t).view.set := by
  have hi0 : (i 0).val < 2048 := (i 0).isLt
  have hi1 : (i 1).val < 2048 := (i 1).isLt
  obtain ⟨t, ht⟩ := idx_onto ⟨(i 0).val / 256, by omega⟩
  have q0 : win0_1.index t (0 : Fin 2) = (i 0).val / 256 := ht
  obtain ⟨e0, e1, e2, e3, e4, e5⟩ := idx_facts t
  refine ⟨t, flush0_1 t, ?_⟩
  rw [mem_blk_tern]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 2048 ≤ (i 1).val ∧ (i 1).val < win0_1.index t (1 : Fin 2) * 2048 + 2048; omega

/-- After the run the quantized weight is `ternArr` of the weight as the region found it. -/
theorem final_tern (c : Dev nD) : (dat0 V c).arrAt 1 cfg0.N = ternArr (V c main_arg1) :=
  (dat0 V c).arrAt_eq_of_cover 1 (ternArr (V c main_arg1)) (fun t _ => flushed_tern V c t) cover_tern

/-! ## The scale column (window 2) -/

theorem flushed_scale (c : Dev nD) (t : Fin cfg0.N) :
    (dat0 V c).flushed 2 t = ((cfg0.win 2).blk t).view.read (Elt Ideal) (scaleArr (V c main_arg1)) := by
  show (cfg0.win 2).cut (grid0.coords t) ((dat0 V c).after 2 t) = _
  rw [after0_2]
  unfold out0_2
  rw [View.canon_unit_zero hz]
  simp only [View.ld_unit_zero (S := S256x2048) hz]
  obtain ⟨e0, e1, e2, e3, e4, e5⟩ := idx_facts t
  funext j
  show k0_pay1 (iblk0 V c 0 t) j = scaleArr (V c main_arg1) (((cfg0.win 2).blk t).view.emb j)
  refine scale_point (V c main_arg1) (iblk0 V c 0 t) j _ (fun k => ?_)
  show V c main_arg1 (((cfg0.win 0).blk t).view.emb (ix2 (⟨(j 0).val, (j 0).isLt⟩ : Fin 256) k)) = _
  refine congrArg (V c main_arg1) (funext fun a => Fin.ext ?_)
  match a with
  | ⟨0, _⟩ => show win0_0.index t (0 : Fin 2) * 256 + 1 * (j 0).val = win0_2.index t (0 : Fin 2) * 256 + 1 * (j 0).val; omega
  | ⟨1, _⟩ => show win0_0.index t (1 : Fin 2) * 2048 + 1 * k.val = k.val; omega

theorem mem_blk_scale (t : Fin cfg0.N) (i : S2048x1.Idx) :
    i ∈ ((cfg0.win 2).blk t).view.set ↔ ∀ a : Fin 2, win0_2.index t a * S256x1.size a ≤ (i a).val ∧ (i a).val < win0_2.index t a * S256x1.size a + S256x1.size a := by
  show i ∈ ((View.whole main_call0_v2_1).slice (win0_2.rect t)).set ↔ _
  rw [View.set_slice_whole, Rect.mem_set_unit]
  exact Iff.rfl

theorem cover_scale (i : S2048x1.Idx) : ∃ t : Fin cfg0.N, (cfg0.win 2).flush t = true ∧ i ∈ ((cfg0.win 2).blk t).view.set := by
  have hi0 : (i 0).val < 2048 := (i 0).isLt
  have hi1 : (i 1).val < 1 := (i 1).isLt
  obtain ⟨t, ht⟩ := idx_onto ⟨(i 0).val / 256, by omega⟩
  have q0 : win0_1.index t (0 : Fin 2) = (i 0).val / 256 := ht
  obtain ⟨e0, e1, e2, e3, e4, e5⟩ := idx_facts t
  refine ⟨t, flush0_2 t, ?_⟩
  rw [mem_blk_scale]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 1 ≤ (i 1).val ∧ (i 1).val < win0_2.index t (1 : Fin 2) * 1 + 1; omega

/-- After the run the scale column is `scaleArr` of the weight as the region found it. -/
theorem final_scale (c : Dev nD) : (dat0 V c).arrAt 2 cfg0.N = scaleArr (V c main_arg1) :=
  (dat0 V c).arrAt_eq_of_cover 2 (scaleArr (V c main_arg1)) (fun t _ => flushed_scale V c t) cover_scale

end Cert.KernelIdeal.WeightArrays

end
-- ==== Proof.ActBlock.lean ====
/-
  The fused kernel's stored value, read at an index of the blocks it loads.

  The body loads a block `x` of 512 activation rows, the whole quantized weight `wq`, the row of weight scales `g` and the
  bias row `b`. Its arithmetic is taken in stages, each read at an index: the column of mean squares plus ε; the block
  divided by its rows' root mean squares (a product with the reciprocal square root); the column of row maxima of
  absolute values over 127; the block times the reciprocal of (scale + ε), rounded half to even and clamped to
  [-127, 127]; the product of that block with the transposed quantized weight, which at `(p, n)` is the sum over `k` of
  the quantized entry `(p, k)` times the weight entry `(n, k)` (the narrowing to bf16 is the identity on the extended
  reals); and the rescaling by `g n` and by row `p`'s scale, plus `b n`.
-/
import proofs.«180496_j51969104281929_2_alg».proof.Proof.Gen.KernelIdeal.Skeleton
import proofs.«180496_j51969104281929_2_alg».proof.Proof.RowSpec
import proofs.«180496_j51969104281929_2_alg».proof.Proof.LibRows
import Idealize.ShloMosaic.Lib.ValueLayout

noncomputable section

namespace Cert.KernelIdeal.ActBlock

open Cert.KernelIdeal Cert.KernelIdeal.Gen Cert.QuantLinear Cert.LibRows
open Idealize.ShloMosaic Idealize.ShloMosaic.ValueIdx

/-- The product's dimension record: both operands contracted along their second axis. -/
abbrev D := dot_S512x2048_S2048x2048_S512x2048_1_1_0_0_n_n

/-! ## The two lane reductions of a block of 512 rows -/

theorem rowSum512 (v : FVec Ideal S512x2048 .f32) (p : Fin 512) :
    multiReduction .add [1] S512 v 0x00000000#32 reduces_S512x2048_S512 (.inl rfl) rfl (ix1 p) = ∑ k : Fin 2048, v (ix2 p k) :=
  rowSum_apply v 0x00000000#32 reduces_S512x2048_S512 (.inl rfl) rfl p

theorem rowMax512 (v : FVec Ideal S512x2048 .f32) (p : Fin 512) :
    multiReduction .maximumf [1] S512 v 0xFF800000#32 reduces_S512x2048_S512 (.inl rfl) rfl (ix1 p)
      = (Finset.univ : Finset (Fin 2048)).fold max cNegInf fun k => v (ix2 p k) :=
  rowMax_apply v 0xFF800000#32 reduces_S512x2048_S512 (.inl rfl) rfl p

/-! ## The stages -/

/-- The column of mean squares plus ε. -/
def msCol (x : FVec Ideal S512x2048 .f32) : FVec Ideal S512x1 .f32 :=
  addf (divf (shapeCast S512x1 (multiReduction .add [1] S512 (mulf x x) 0x00000000#32 reduces_S512x2048_S512 (.inl rfl) rfl) shapeCasts_S512_S512x1)
    (broadcast S512x1 (Scalar.ofBits .f32 0x45000000#32))) (broadcast S512x1 (Scalar.ofBits .f32 0x322BCC77#32))

/-- The block with each row divided by its root mean square. -/
def normBlk (x : FVec Ideal S512x2048 .f32) : FVec Ideal S512x2048 .f32 :=
  mulf x (broadcastTo S512x2048 (rsqrt (msCol x)) broadcasts_S512x1_S512x2048)

/-- The column of per-row scales: the largest absolute value of the normalized row, over 127. -/
def scCol (x : FVec Ideal S512x2048 .f32) : FVec Ideal S512x1 .f32 :=
  divf (shapeCast S512x1 (multiReduction .maximumf [1] S512 (absf (normBlk x)) 0xFF800000#32 reduces_S512x2048_S512 (.inl rfl) rfl) shapeCasts_S512_S512x1)
    (broadcast S512x1 (Scalar.ofBits .f32 0x42FE0000#32))

/-- The quantized block. -/
def quantBlk (x : FVec Ideal S512x2048 .f32) : FVec Ideal S512x2048 .f32 :=
  minimumf (broadcast S512x2048 (Scalar.ofBits .f32 0x42FE0000#32))
    (maximumf (broadcast S512x2048 (Scalar.ofBits .f32 0xC2FE0000#32))
      (roundeven (mulf (normBlk x) (broadcastTo S512x2048
        (divf (broadcast S512x1 (Scalar.ofBits .f32 0x3F800000#32)) (addf (scCol x) (broadcast S512x1 (Scalar.ofBits .f32 0x322BCC77#32))))
        broadcasts_S512x1_S512x2048))))

/-- The body's product-and-rescale payload is these stages composed. -/
theorem pay2_stages (x0 : FVec Ideal S512x2048 .f32) (x1 : FVec Ideal S2048x2048 .bf16) (x2 : FVec Ideal S1x2048 .f32) :
    k1_pay2 (F := Ideal) x0 x1 x2 =
      mulf (mulf (matmul D none (truncf .bf16 (quantBlk (shapeCast S512x2048 x0 shapeCasts_S512x2048_S512x2048)) bitsLt_bf16_f32)
            (shapeCast S2048x2048 x1 shapeCasts_S2048x2048_S2048x2048) (constant S512x2048 .f32 0x00000000#32))
          (broadcastTo S512x2048 (shapeCast S1x2048 x2 shapeCasts_S1x2048_S1x2048) broadcasts_S1x2048_S512x2048))
        (broadcastTo S512x2048 (scCol (shapeCast S512x2048 x0 shapeCasts_S512x2048_S512x2048)) broadcasts_S512x1_S512x2048) := rfl

/-! ## Each stage at an index -/

theorem msCol_apply (x : FVec Ideal S512x2048 .f32) (p : Fin 512) (u : Fin 1) :
    msCol x (ix2 p u) = meanSq fun k => x (ix2 p k) := by
  unfold msCol meanSq
  rw [addf_apply, divf_apply, broadcast_apply, broadcast_apply, shapeCast_a_a1_apply, rowSum512]
  rfl

theorem normBlk_apply (x : FVec Ideal S512x2048 .f32) (p : Fin 512) (k : Fin 2048) :
    normBlk x (ix2 p k) = normed (fun k => x (ix2 p k)) k := by
  unfold normBlk normed
  rw [mulf_apply, broadcastTo_a1_ab_apply]
  show x (ix2 p k) * Ideal.rsqrt (msCol x (ix2 p (0 : Fin 1))) = _
  rw [msCol_apply]

theorem scCol_apply (x : FVec Ideal S512x2048 .f32) (p : Fin 512) (u : Fin 1) :
    scCol x (ix2 p u) = scale fun k => x (ix2 p k) := by
  unfold scCol scale
  rw [divf_apply, broadcast_apply, shapeCast_a_a1_apply, rowMax512]
  have e : (fun k : Fin 2048 => absf (normBlk x) (ix2 p k))
      = fun k => max (normed (fun k => x (ix2 p k)) k) (-(normed (fun k => x (ix2 p k)) k)) :=
    funext fun k => by
      show max (normBlk x (ix2 p k)) (-(normBlk x (ix2 p k))) = _
      rw [normBlk_apply]
  rw [e]
  rfl

theorem quantBlk_apply (x : FVec Ideal S512x2048 .f32) (p : Fin 512) (k : Fin 2048) :
    quantBlk x (ix2 p k) = quant (fun k => x (ix2 p k)) k := by
  unfold quantBlk quant
  show min cQ (max cNegQ (rne (normBlk x (ix2 p k) * broadcastTo S512x2048
    (divf (broadcast S512x1 (Scalar.ofBits .f32 0x3F800000#32)) (addf (scCol x) (broadcast S512x1 (Scalar.ofBits .f32 0x322BCC77#32))))
    broadcasts_S512x1_S512x2048 (ix2 p k)))) = _
  rw [broadcastTo_a1_ab_apply, divf_apply, addf_apply, broadcast_apply, broadcast_apply, normBlk_apply, scCol_apply]
  rfl

/-! ## The product at an index -/

theorem D_lhs0 (j : S512x2048.Idx) (q : D.contr.Idx) : (D.lhsIdx j q 0).val = (j 0).val := by
  unfold DotDims.lhsIdx
  rw [dif_neg (show ¬(0 : Fin S512x2048.rank) ∈ D.lhsBatch by decide), dif_pos (show (0 : Fin S512x2048.rank) ∈ D.lhsNonContracting by decide)]
  rfl
theorem D_lhs1 (j : S512x2048.Idx) (q : D.contr.Idx) : (D.lhsIdx j q 1).val = (q ⟨0, by decide⟩).val :=
  D.lhsIdx_val_of_single rfl j q
theorem D_rhs0 (j : S512x2048.Idx) (q : D.contr.Idx) : (D.rhsIdx j q 0).val = (j 1).val := by
  unfold DotDims.rhsIdx
  rw [dif_neg (show ¬(0 : Fin S2048x2048.rank) ∈ D.rhsBatch by decide), dif_pos (show (0 : Fin S2048x2048.rank) ∈ D.rhsNonContracting by decide)]
  rfl
theorem D_rhs1 (j : S512x2048.Idx) (q : D.contr.Idx) : (D.rhsIdx j q 1).val = (q ⟨0, by decide⟩).val :=
  D.rhsIdx_val_of_single rfl j q

/-- Into a zero accumulator the product at `(p, n)` is the sum over `k` of left `(p, k)` times right `(n, k)`. -/
theorem matmul_at (l : FVec Ideal S512x2048 .bf16) (r : FVec Ideal S2048x2048 .bf16) (p : Fin 512) (n : Fin 2048) :
    matmul D none l r (constant S512x2048 .f32 0x00000000#32) (ix2 p n) = ∑ k : Fin 2048, l (ix2 p k) * r (ix2 n k) := by
  simp only [matmul]
  rw [Ideal.matmul_constant_zero_apply, ← Equiv.sum_comp (ValueIdx.contrEquiv1 D 2048 rfl rfl).symm]
  refine Finset.sum_congr rfl fun k _ => ?_
  have hk := ValueIdx.contrEquiv1_symm_val D 2048 rfl rfl k
  have el : D.lhsIdx (ix2 p n) ((ValueIdx.contrEquiv1 D 2048 rfl rfl).symm k) = ix2 p k := funext fun a => Fin.ext (by
    match a with
    | ⟨0, _⟩ => exact D_lhs0 _ _
    | ⟨1, _⟩ => exact (D_lhs1 _ _).trans hk)
  have er : D.rhsIdx (ix2 p n) ((ValueIdx.contrEquiv1 D 2048 rfl rfl).symm k) = ix2 n k := funext fun a => Fin.ext (by
    match a with
    | ⟨0, _⟩ => exact D_rhs0 _ _
    | ⟨1, _⟩ => exact (D_rhs1 _ _).trans hk)
  rw [el, er]

/-! ## The stored value at an index -/

/-- What the body stores at `(p, n)`: the layer's entry for activation row `p` of the loaded block, row `n` of the
    quantized weight, the weight scale and the bias at `n`. -/
theorem pay_entry (x0 : FVec Ideal S512x2048 .f32) (x1 : FVec Ideal S2048x2048 .bf16) (x2 x3 : FVec Ideal S1x2048 .f32)
    (p : Fin 512) (n : Fin 2048) :
    k1_pay1 (F := Ideal) (k1_pay2 x0 x1 x2) (k1_pay3 x3) (ix2 p n)
      = entry (fun k => x0 (ix2 p k)) (fun k => x1 (ix2 n k)) (x2 (ix2 (0 : Fin 1) n)) (x3 (ix2 (0 : Fin 1) n)) := by
  rw [pay2_stages]
  unfold k1_pay1 k1_pay3 entry
  dsimp only
  simp only [shapeCast_self]
  rw [addf_apply, mulf_apply, mulf_apply, broadcastTo_1b_ab_apply, broadcastTo_1b_ab_apply, broadcastTo_a1_ab_apply, scCol_apply, matmul_at]
  refine congrArg (fun s : EReal => s * x2 (ix2 (0 : Fin 1) n) * scale (fun k => x0 (ix2 p k)) + x3 (ix2 (0 : Fin 1) n))
    (Finset.sum_congr rfl fun k _ => ?_)
  rw [truncf_apply, quantBlk_apply]

end Cert.KernelIdeal.ActBlock

end
-- ==== Proof.ActArrays.lean ====
/-
  The fused region's output array after the run, as a whole-array function of the four arrays it reads.

  The grid has 32 points; point `t` loads rows `512 t … 512 t + 511` of the flattened activations and, whole, the
  quantized weight, the row of weight scales and the bias row, and writes back the same 512 rows of the output. What
  point `t` writes back is its block of ONE function of the four arrays: entry `(r, n)` is the layer's entry for
  activation row `r`, quantized weight row `n`, the weight scale at `n` and the bias at `n`. The 32 blocks tile the output
  (row `r` is in block `r / 512`), so after the run the output is that function everywhere.
-/
import proofs.«180496_j51969104281929_2_alg».proof.Proof.Gen.KernelIdeal.Frame
import proofs.«180496_j51969104281929_2_alg».proof.Proof.ActBlock

noncomputable section

namespace Cert.KernelIdeal.ActArrays

open Cert.KernelIdeal Cert.KernelIdeal.Gen Cert.KernelIdeal.ActBlock Cert.QuantLinear
open Idealize.ShloMosaic Idealize.ShloMosaic.TcCoe Idealize.ShloMosaic.ValueIdx Idealize.SL.Sem
open Idealize.ShloMosaic.Pipeline (Dat)

set_option maxRecDepth 16384

/-- The output as a function of the flattened activations `X`, the quantized weight `Wq`, the scale row `Gm` and the
    bias row `B`. -/
def outArr (X : S16384x2048.Idx → Elt Ideal .f32) (Wq : S2048x2048.Idx → Elt Ideal .bf16) (Gm B : S1x2048.Idx → Elt Ideal .f32) :
    S16384x2048.Idx → Elt Ideal .f32 := fun i =>
  entry (fun k => X (ix2 (⟨(i 0).val, (i 0).isLt⟩ : Fin 16384) k)) (fun k => Wq (ix2 (⟨(i 1).val, (i 1).isLt⟩ : Fin 2048) k))
    (Gm (ix2 (0 : Fin 1) (⟨(i 1).val, (i 1).isLt⟩ : Fin 2048))) (B (ix2 (0 : Fin 1) (⟨(i 1).val, (i 1).isLt⟩ : Fin 2048)))

/-- If row `j 0` of the loaded activation block is row `i 0` of the activations, the three resident blocks are the whole
    arrays, and `j`, `i` have the same column, the stored value at `j` is the output function at `i`. -/
theorem out_point (X : S16384x2048.Idx → Elt Ideal .f32) (Wq : S2048x2048.Idx → Elt Ideal .bf16) (Gm B : S1x2048.Idx → Elt Ideal .f32)
    (x0 : FVec Ideal S512x2048 .f32) (x1 : FVec Ideal S2048x2048 .bf16) (x2 x3 : FVec Ideal S1x2048 .f32)
    (j : S512x2048.Idx) (i : S16384x2048.Idx)
    (h0 : ∀ k : Fin 2048, x0 (ix2 (⟨(j 0).val, (j 0).isLt⟩ : Fin 512) k) = X (ix2 (⟨(i 0).val, (i 0).isLt⟩ : Fin 16384) k))
    (h1 : x1 = Wq) (h2 : x2 = Gm) (h3 : x3 = B) (hn : (j 1).val = (i 1).val) :
    k1_pay1 (F := Ideal) (k1_pay2 x0 x1 x2) (k1_pay3 x3) j = outArr X Wq Gm B i := by
  obtain ⟨p, n, rfl⟩ : ∃ (p : Fin 512) (n : Fin 2048), j = ix2 p n := ⟨j 0, j 1, eq_ix2 j⟩
  subst h1 h2 h3
  rw [pay_entry]
  unfold outArr
  have e0 : (fun k => x0 (ix2 p k)) = fun k => X (ix2 (⟨(i 0).val, (i 0).isLt⟩ : Fin 16384) k) := funext h0
  have en : n = (⟨(i 1).val, (i 1).isLt⟩ : Fin 2048) := Fin.ext hn
  rw [e0, en]

/-! ## The index maps over the grid -/

theorem hz : (![0, 0] : Fin 2 → Nat) = fun _ => 0 := funext fun a => by fin_cases a <;> rfl

/-- The activation and output windows move together down the rows; the three resident windows stay at block (0, 0);
    there are 32 row blocks. -/
theorem idx_facts : ∀ t : Fin cfg1.N, win1_0.index t (0 : Fin 2) = win1_4.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 31 :=
  (by decide +kernel : ∀ t : Fin grid1.N, _)

/-- Every row block is some point's. -/
theorem idx_onto : ∀ q0 : Fin 32, ∃ t : Fin cfg1.N, win1_4.index t (0 : Fin 2) = q0.val :=
  (by decide +kernel : ∀ q0 : Fin 32, ∃ t : Fin grid1.N, win1_4.index t (0 : Fin 2) = q0.val)

variable (V : (c : Dev nD) → (b : Ref sig .tc) → Buf (Elt Ideal) ((c : Thread nD τ).loc b))

/-- What point `t` writes back is its block of `outArr` of the four arrays as the region found them. -/
theorem flushed_out (c : Dev nD) (t : Fin cfg1.N) :
    (dat1 V c).flushed 4 t = ((cfg1.win 4).blk t).view.read (Elt Ideal)
      (outArr (V c main_call0_v0) (V c main_call0_v2_0) (V c main_call0_v3) (V c main_call0_v1)) := by
  show (cfg1.win 4).cut (grid1.coords t) ((dat1 V c).after 4 t) = _
  rw [after1_4]
  unfold out1_4
  rw [View.canon_unit_zero hz]
  simp only [View.ld_unit_zero (S := S512x2048) hz, View.ld_unit_zero (S := S2048x2048) hz, View.ld_unit_zero (S := S1x2048) hz]
  obtain ⟨e0, e1, e2, e3, e4, e5, e6, e7, e8, e9⟩ := idx_facts t
  funext j
  show k1_pay1 (k1_pay2 (iblk1 V c 0 t) (iblk1 V c 1 t) (iblk1 V c 2 t)) (k1_pay3 (iblk1 V c 3 t)) j
    = outArr (V c main_call0_v0) (V c main_call0_v2_0) (V c main_call0_v3) (V c main_call0_v1) (((cfg1.win 4).blk t).view.emb j)
  refine out_point (V c main_call0_v0) (V c main_call0_v2_0) (V c main_call0_v3) (V c main_call0_v1)
    (iblk1 V c 0 t) (iblk1 V c 1 t) (iblk1 V c 2 t) (iblk1 V c 3 t) j _ (fun k => ?_) ?_ ?_ ?_ ?_
  · show V c main_call0_v0 (((cfg1.win 0).blk t).view.emb (ix2 (⟨(j 0).val, (j 0).isLt⟩ : Fin 512) k)) = _
    refine congrArg (V c main_call0_v0) (funext fun a => Fin.ext ?_)
    match a with
    | ⟨0, _⟩ => show win1_0.index t (0 : Fin 2) * 512 + 1 * (j 0).val = win1_4.index t (0 : Fin 2) * 512 + 1 * (j 0).val; omega
    | ⟨1, _⟩ => show win1_0.index t (1 : Fin 2) * 2048 + 1 * k.val = k.val; omega
  · funext y
    show V c main_call0_v2_0 (((cfg1.win 1).blk t).view.emb y) = V c main_call0_v2_0 y
    refine congrArg (V c main_call0_v2_0) (funext fun a => Fin.ext ?_)
    match a with
    | ⟨0, _⟩ => show win1_1.index t (0 : Fin 2) * 2048 + 1 * (y 0).val = (y 0).val; omega
    | ⟨1, _⟩ => show win1_1.index t (1 : Fin 2) * 2048 + 1 * (y 1).val = (y 1).val; omega
  · funext y
    show V c main_call0_v3 (((cfg1.win 2).blk t).view.emb y) = V c main_call0_v3 y
    refine congrArg (V c main_call0_v3) (funext fun a => Fin.ext ?_)
    match a with
    | ⟨0, _⟩ => show win1_2.index t (0 : Fin 2) * 1 + 1 * (y 0).val = (y 0).val; omega
    | ⟨1, _⟩ => show win1_2.index t (1 : Fin 2) * 2048 + 1 * (y 1).val = (y 1).val; omega
  · funext y
    show V c main_call0_v1 (((cfg1.win 3).blk t).view.emb y) = V c main_call0_v1 y
    refine congrArg (V c main_call0_v1) (funext fun a => Fin.ext ?_)
    match a with
    | ⟨0, _⟩ => show win1_3.index t (0 : Fin 2) * 1 + 1 * (y 0).val = (y 0).val; omega
    | ⟨1, _⟩ => show win1_3.index t (1 : Fin 2) * 2048 + 1 * (y 1).val = (y 1).val; omega
  · show (j 1).val = win1_4.index t (1 : Fin 2) * 2048 + 1 * (j 1).val; omega

theorem mem_blk_out (t : Fin cfg1.N) (i : S16384x2048.Idx) :
    i ∈ ((cfg1.win 4).blk t).view.set ↔ ∀ a : Fin 2, win1_4.index t a * S512x2048.size a ≤ (i a).val ∧ (i a).val < win1_4.index t a * S512x2048.size a + S512x2048.size a := by
  show i ∈ ((View.whole main_call0_v4).slice (win1_4.rect t)).set ↔ _
  rw [View.set_slice_whole, Rect.mem_set_unit]
  exact Iff.rfl

theorem cover_out (i : S16384x2048.Idx) : ∃ t : Fin cfg1.N, (cfg1.win 4).flush t = true ∧ i ∈ ((cfg1.win 4).blk t).view.set := by
  have hi0 : (i 0).val < 16384 := (i 0).isLt
  have hi1 : (i 1).val < 2048 := (i 1).isLt
  obtain ⟨t, ht⟩ := idx_onto ⟨(i 0).val / 512, by omega⟩
  have q0 : win1_4.index t (0 : Fin 2) = (i 0).val / 512 := ht
  obtain ⟨e0, e1, e2, e3, e4, e5, e6, e7, e8, e9⟩ := idx_facts t
  refine ⟨t, flush1_4 t, ?_⟩
  rw [mem_blk_out]
  intro a
  match a with
  | ⟨0, _⟩ => show win1_4.index t (0 : Fin 2) * 512 ≤ (i 0).val ∧ (i 0).val < win1_4.index t (0 : Fin 2) * 512 + 512; omega
  | ⟨1, _⟩ => show win1_4.index t (1 : Fin 2) * 2048 ≤ (i 1).val ∧ (i 1).val < win1_4.index t (1 : Fin 2) * 2048 + 2048; omega

/-- After the run the output array is `outArr` of the four arrays as the region found them. -/
theorem final_out (c : Dev nD) : (dat1 V c).arrAt 4 cfg1.N
    = outArr (V c main_call0_v0) (V c main_call0_v2_0) (V c main_call0_v3) (V c main_call0_v1) :=
  (dat1 V c).arrAt_eq_of_cover 4 _ (fun t _ => flushed_out V c t) cover_out

end Cert.KernelIdeal.ActArrays

end
-- ==== Proof.LayerSpec.lean ====
/-
  The whole layer as one function of its three arguments, index by index.

  For activations `x` of shape [8, 2048, 2048], weight `w` of shape [2048, 2048] and bias `b` of shape [2048], the result
  at `(i, s, n)` is the row-level entry for activation row `(i, s)`, the ternary form and the mean absolute value of
  weight row `n`, and the bias at `n`.
-/
import proofs.«180496_j51969104281929_2_alg».proof.Proof.RowSpec
import Idealize.ShloMosaic.Lib.ValueIdx

noncomputable section

namespace Cert.QuantLinear

open Idealize.ShloMosaic Idealize.ShloMosaic.ValueIdx

/-- The layer's result. -/
def layer (x : (⟨3, ![8, 2048, 2048]⟩ : Shape).Idx → EReal) (w : (⟨2, ![2048, 2048]⟩ : Shape).Idx → EReal)
    (b : (⟨1, ![2048]⟩ : Shape).Idx → EReal) : (⟨3, ![8, 2048, 2048]⟩ : Shape).Idx → EReal := fun i =>
  entry (fun k => x (ix3 (⟨(i 0).val, (i 0).isLt⟩ : Fin 8) (⟨(i 1).val, (i 1).isLt⟩ : Fin 2048) k))
    (ternary fun k => w (ix2 (⟨(i 2).val, (i 2).isLt⟩ : Fin 2048) k))
    (absMean fun k => w (ix2 (⟨(i 2).val, (i 2).isLt⟩ : Fin 2048) k))
    (b (ix1 (⟨(i 2).val, (i 2).isLt⟩ : Fin 2048)))

/-- The layer's result at coordinates. -/
theorem layer_ix3 (x : (⟨3, ![8, 2048, 2048]⟩ : Shape).Idx → EReal) (w : (⟨2, ![2048, 2048]⟩ : Shape).Idx → EReal)
    (b : (⟨1, ![2048]⟩ : Shape).Idx → EReal) (i : Fin 8) (s n : Fin 2048) :
    layer x w b (ix3 i s n)
      = entry (fun k => x (ix3 i s k)) (ternary fun k => w (ix2 n k)) (absMean fun k => w (ix2 n k)) (b (ix1 n)) := rfl

end Cert.QuantLinear

end
-- ==== Proof.KernelValue.lean ====
/-
  The idealized kernel's result array is the layer function of its arguments.

  The contents of the buffers at each segment boundary are followed from the launch to the return. At the first
  region's entry the weight is the argument itself, and the activations and the bias are the arguments reshaped to
  [16384, 2048] and [1, 2048]. The first region leaves the quantized weight and the column of weight scales (functions of
  the weight); the transpose lays that column out as a row. The second region leaves the output array as the
  output function of the reshaped activations, the quantized weight, the scale row and the bias row; the last
  reshape lays it out as [8, 2048, 2048]. Read at `(i, s, n)`: the output's row is `2048 i + s`, whose activations are
  the argument's row `(i, s)`; the quantized weight's row `n` is the ternary form of weight row `n`; the scale row at
  `n` is the scale column at `n`, the mean absolute value of weight row `n`; the bias row at `n` is the bias at `n`.
-/
import proofs.«180496_j51969104281929_2_alg».proof.Proof.WeightArrays
import proofs.«180496_j51969104281929_2_alg».proof.Proof.ActArrays
import proofs.«180496_j51969104281929_2_alg».proof.Proof.LayerSpec
import Idealize.ShloMosaic.Lib.StableHlo.Run
import Idealize.ShloMosaic.Lib.ValueLayout

noncomputable section

namespace Cert.KernelIdeal.KernelValue

open Cert.KernelIdeal Cert.KernelIdeal.Gen Cert.KernelIdeal.WeightArrays Cert.KernelIdeal.ActArrays Cert.QuantLinear Cert.LibRows
open Idealize.ShloMosaic Idealize.ShloMosaic.TcCoe Idealize.ShloMosaic.ValueIdx Idealize.ShloMosaic.StableHlo Idealize.SL.Sem

set_option maxRecDepth 16384

variable (m : (ℓ : Loc nD τ sig) → Buf (Elt Ideal) ℓ) (ρ : Dev nD → PrngReg)

/-! ## The first region's entry -/

theorem W1_weight (c : Dev nD) : W1 m ρ c (Proc.devRef .tc main_arg1) = m ((c : Thread nD τ).loc main_arg1) := by
  show StableHlo.after hostOps0 (W0 m ρ c) (Proc.devRef .tc main_arg1) = _
  after_results

theorem W1_acts (c : Dev nD) : W1 m ρ c (Proc.devRef .tc main_call0_v0)
    = shapeCast S16384x2048 (m ((c : Thread nD τ).loc main_arg0)) shapeCasts_S8x2048x2048_S16384x2048 := by
  show StableHlo.after hostOps0 (W0 m ρ c) (Proc.devRef .tc main_call0_v0) = _
  after_results
  rfl

theorem W1_bias (c : Dev nD) : W1 m ρ c (Proc.devRef .tc main_call0_v1)
    = shapeCast S1x2048 (m ((c : Thread nD τ).loc main_arg2)) shapeCasts_S2048_S1x2048 := by
  show StableHlo.after hostOps0 (W0 m ρ c) (Proc.devRef .tc main_call0_v1) = _
  after_results
  rfl

/-! ## The first region's exit -/

theorem W2_tern (c : Dev nD) : W2 m ρ c (Proc.devRef .tc main_call0_v2_0) = ternArr (m ((c : Thread nD τ).loc main_arg1)) :=
  (W2_arr m ρ c 1).trans ((final_tern (V1 m ρ) c).trans (congrArg ternArr (W1_weight m ρ c)))

theorem W2_scale (c : Dev nD) : W2 m ρ c (Proc.devRef .tc main_call0_v2_1) = scaleArr (m ((c : Thread nD τ).loc main_arg1)) :=
  (W2_arr m ρ c 2).trans ((final_scale (V1 m ρ) c).trans (congrArg scaleArr (W1_weight m ρ c)))

/-! ## The second region's entry -/

theorem W3_acts (c : Dev nD) : W3 m ρ c (Proc.devRef .tc main_call0_v0)
    = shapeCast S16384x2048 (m ((c : Thread nD τ).loc main_arg0)) shapeCasts_S8x2048x2048_S16384x2048 := by
  show StableHlo.after hostOps1 (W2 m ρ c) (Proc.devRef .tc main_call0_v0) = _
  after_results
  exact (W2_of_ne m ρ c main_call0_v0 (by decide)).trans (W1_acts m ρ c)

theorem W3_bias (c : Dev nD) : W3 m ρ c (Proc.devRef .tc main_call0_v1)
    = shapeCast S1x2048 (m ((c : Thread nD τ).loc main_arg2)) shapeCasts_S2048_S1x2048 := by
  show StableHlo.after hostOps1 (W2 m ρ c) (Proc.devRef .tc main_call0_v1) = _
  after_results
  exact (W2_of_ne m ρ c main_call0_v1 (by decide)).trans (W1_bias m ρ c)

theorem W3_tern (c : Dev nD) : W3 m ρ c (Proc.devRef .tc main_call0_v2_0) = ternArr (m ((c : Thread nD τ).loc main_arg1)) := by
  show StableHlo.after hostOps1 (W2 m ρ c) (Proc.devRef .tc main_call0_v2_0) = _
  after_results
  exact W2_tern m ρ c

theorem W3_scaleRow (c : Dev nD) : W3 m ρ c (Proc.devRef .tc main_call0_v3)
    = transpose S1x2048 [1, 0] (scaleArr (m ((c : Thread nD τ).loc main_arg1))) transposes_S2048x1_S1x2048_1_0 := by
  show StableHlo.after hostOps1 (W2 m ρ c) (Proc.devRef .tc main_call0_v3) = _
  after_results
  rw [W2_scale]
  rfl

/-! ## The second region's exit and the return -/

theorem W4_out (c : Dev nD) : W4 m ρ c (Proc.devRef .tc main_call0_v4)
    = outArr (shapeCast S16384x2048 (m ((c : Thread nD τ).loc main_arg0)) shapeCasts_S8x2048x2048_S16384x2048)
        (ternArr (m ((c : Thread nD τ).loc main_arg1)))
        (transpose S1x2048 [1, 0] (scaleArr (m ((c : Thread nD τ).loc main_arg1))) transposes_S2048x1_S1x2048_1_0)
        (shapeCast S1x2048 (m ((c : Thread nD τ).loc main_arg2)) shapeCasts_S2048_S1x2048) := by
  refine (W4_arr m ρ c 4).trans ((final_out (V3 m ρ) c).trans ?_)
  show outArr (W3 m ρ c (Proc.devRef .tc main_call0_v0)) (W3 m ρ c (Proc.devRef .tc main_call0_v2_0))
    (W3 m ρ c (Proc.devRef .tc main_call0_v3)) (W3 m ρ c (Proc.devRef .tc main_call0_v1)) = _
  rw [W3_acts, W3_tern, W3_scaleRow, W3_bias]

theorem W5_result (c : Dev nD) : W5 m ρ c (Proc.devRef .tc main_v0)
    = shapeCast S8x2048x2048 (W4 m ρ c (Proc.devRef .tc main_call0_v4)) shapeCasts_S16384x2048_S8x2048x2048 := by
  show StableHlo.after hostOps2 (W4 m ρ c) (Proc.devRef .tc main_v0) = _
  after_results
  rfl

/-! ## The result, index by index -/

/-- The result array is the layer function of the three arguments. -/
theorem result_eq (c : Dev nD) : W5 m ρ c (Proc.devRef .tc main_v0)
    = layer (m ((c : Thread nD τ).loc main_arg0)) (m ((c : Thread nD τ).loc main_arg1)) (m ((c : Thread nD τ).loc main_arg2)) := by
  rw [W5_result, W4_out]
  funext j
  obtain ⟨i, s, n, rfl⟩ : ∃ (i : Fin 8) (s n : Fin 2048), j = ix3 i s n := ⟨j 0, j 1, j 2, eq_ix3 j⟩
  have hr : i.val * 2048 + s.val < 16384 := by have := i.isLt; have := s.isLt; omega
  rw [layer_ix3, shapeCast_apply _ _ (ix3 i s n) (ix2 (⟨i.val * 2048 + s.val, hr⟩ : Fin 16384) n)
    (by rw [Shape.rowMajor_val_two, Shape.rowMajor_val_three]; rfl)]
  unfold outArr
  have hX : (fun k : Fin 2048 => shapeCast S16384x2048 (m ((c : Thread nD τ).loc main_arg0)) shapeCasts_S8x2048x2048_S16384x2048
        (ix2 (⟨i.val * 2048 + s.val, hr⟩ : Fin 16384) k))
      = fun k => m ((c : Thread nD τ).loc main_arg0) (ix3 i s k) :=
    funext fun k => shapeCast_apply _ _ (ix2 (⟨i.val * 2048 + s.val, hr⟩ : Fin 16384) k) (ix3 i s k)
      (by rw [Shape.rowMajor_val_two, Shape.rowMajor_val_three]; rfl)
  have hG : transpose S1x2048 [1, 0] (scaleArr (m ((c : Thread nD τ).loc main_arg1))) transposes_S2048x1_S1x2048_1_0 (ix2 (0 : Fin 1) n)
      = absMean fun k => m ((c : Thread nD τ).loc main_arg1) (ix2 n k) :=
    transpose_ix2_apply _ _ (0 : Fin 1) n
  have hB : shapeCast S1x2048 (m ((c : Thread nD τ).loc main_arg2)) shapeCasts_S2048_S1x2048 (ix2 (0 : Fin 1) n)
      = m ((c : Thread nD τ).loc main_arg2) (ix1 n) :=
    shapeCast_a_1a_apply _ _ (0 : Fin 1) n
  show entry (fun k : Fin 2048 => shapeCast S16384x2048 (m ((c : Thread nD τ).loc main_arg0)) shapeCasts_S8x2048x2048_S16384x2048
        (ix2 (⟨i.val * 2048 + s.val, hr⟩ : Fin 16384) k))
      (fun k => ternArr (m ((c : Thread nD τ).loc main_arg1)) (ix2 n k))
      (transpose S1x2048 [1, 0] (scaleArr (m ((c : Thread nD τ).loc main_arg1))) transposes_S2048x1_S1x2048_1_0 (ix2 (0 : Fin 1) n))
      (shapeCast S1x2048 (m ((c : Thread nD τ).loc main_arg2)) shapeCasts_S2048_S1x2048 (ix2 (0 : Fin 1) n)) = _
  rw [hX, hG, hB]
  rfl

end Cert.KernelIdeal.KernelValue

end
-- ==== Proof.RefValue.lean ====
/-
  The reference program's result is the layer function of its arguments.

  The reference computes, stage by stage on whole arrays: the mean square of each activation row plus ε, the row
  divided by the square root of that, the per-row scale (largest absolute value over 127), the row divided by
  (scale + ε), rounded and clamped; the mean absolute value of each weight row, the row divided by (that + ε), rounded
  and clamped; the contraction of the two quantized arrays along their last axes; and the rescaling by the weight
  scale and the activation scale, plus the bias. Each quantity is read at an index from the stages' read-at-an-index
  lemmas and met with its row-level definition; where the reference divides and the definition multiplies by a
  reciprocal, the two agree because the divisor is a nonnegative quantity plus ε (the laws of the row-level module).
-/
import proofs.«180496_j51969104281929_2_alg».proof.Proof.Gen.ReferenceIdeal.Read
import proofs.«180496_j51969104281929_2_alg».proof.Proof.LayerSpec
import proofs.«180496_j51969104281929_2_alg».proof.Proof.LibRows

noncomputable section

namespace Cert.ReferenceIdeal.RefValue

open Cert.ReferenceIdeal Cert.ReferenceIdeal.Gen Cert.ReferenceIdeal.Read Cert.QuantLinear Cert.LibRows
open Idealize.ShloMosaic Idealize.ShloMosaic.ValueIdx

variable (x0 : (⟨S8x2048x2048, .f32⟩ : BufTy).Contents (Elt Ideal)) (x1 : (⟨S2048x2048, .f32⟩ : BufTy).Contents (Elt Ideal))
  (x2 : (⟨S2048, .f32⟩ : BufTy).Contents (Elt Ideal))

/-! ## The weight side -/

/-- The kept-axis column of weight scales at row `n`: the mean absolute value of weight row `n`. -/
theorem gamma_at (n : Fin 2048) (u : Fin 1) : val_main_v14 (F := Ideal) x1 (ix2 n u) = absMean fun k => x1 (ix2 n k) := by
  rw [val_main_v14_apply, val_main_v12_apply, val_main_v13_apply, val_main_cst_3_apply, val_main_v11_apply, val_main_cst_2_apply]
  unfold absMean
  show Ideal.div (Ideal.ofBits .f32 0x00000000#32 + ∑ k : Fin 2048, val_main_v10 (F := Ideal) x1 (idx_main_v11 (idx_main_v12 (ix2 n u)) k)) cLen = _
  rw [Ideal.ofBits_zero_f32, zero_add]
  refine congrArg (fun t => Ideal.div t cLen) (Finset.sum_congr rfl fun k _ => ?_)
  have e : idx_main_v11 (idx_main_v12 (ix2 n u)) k = ix2 n k := funext fun a => Fin.ext (by match a with | ⟨0, _⟩ => rfl | ⟨1, _⟩ => rfl)
  rw [e]
  rfl

/-- The clipped, rounded weight at `(n, k)`: entry `k` of the ternary form of weight row `n`. -/
theorem tern_at (n k : Fin 2048) : val_main_v20 (F := Ideal) x1 (ix2 n k) = ternary (fun k => x1 (ix2 n k)) k := by
  rw [val_main_v20_apply, val_main_call1_v4_apply, val_main_call1_v3_apply, val_main_cst_6_apply, val_main_call1_v2_apply,
    val_main_call1_v1_apply, val_main_call1_v0_apply, val_main_cst_5_apply, val_main_v19_apply, val_main_v18_apply,
    val_main_v17_apply, val_main_v16_apply, val_main_v15_apply, val_main_cst_4_apply]
  have e : idx_main_v17 (ix2 n k) = ix2 n (0 : Fin 1) := funext fun a => Fin.ext (by match a with | ⟨0, _⟩ => rfl | ⟨1, _⟩ => rfl)
  rw [e, gamma_at]
  exact ternary_eq_div (fun k => x1 (ix2 n k)) k

/-! ## The activation side -/

/-- The kept-axis column of mean squares plus ε at row `(i, s)`. -/
theorem ms_at (i : Fin 8) (s : Fin 2048) (u : Fin 1) : val_main_v6 (F := Ideal) x0 (ix3 i s u) = meanSq fun k => x0 (ix3 i s k) := by
  rw [val_main_v6_apply, val_main_v4_apply, val_main_v2_apply, val_main_v3_apply, val_main_cst_0_apply, val_main_v1_apply,
    val_main_cst_apply, val_main_v5_apply, val_main_cst_1_apply]
  unfold meanSq
  show Ideal.div (Ideal.ofBits .f32 0x00000000#32 + ∑ k : Fin 2048, val_main_v0 (F := Ideal) x0 (idx_main_v1 (idx_main_v2 (ix3 i s u)) k)) cLen + eps = _
  rw [Ideal.ofBits_zero_f32, zero_add]
  refine congrArg (fun t => Ideal.div t cLen + eps) (Finset.sum_congr rfl fun k _ => ?_)
  have e : idx_main_v1 (idx_main_v2 (ix3 i s u)) k = ix3 i s k := funext fun a => Fin.ext (by match a with | ⟨0, _⟩ => rfl | ⟨1, _⟩ => rfl | ⟨2, _⟩ => rfl)
  rw [e]
  rfl

/-- The normalized activation at `(i, s, k)`. -/
theorem xn_at (i : Fin 8) (s k : Fin 2048) : val_main_v9 (F := Ideal) x0 (ix3 i s k) = normed (fun k => x0 (ix3 i s k)) k := by
  rw [val_main_v9_apply, val_main_v8_apply, val_main_v7_apply]
  have e : idx_main_v8 (ix3 i s k) = ix3 i s (0 : Fin 1) := funext fun a => Fin.ext (by match a with | ⟨0, _⟩ => rfl | ⟨1, _⟩ => rfl | ⟨2, _⟩ => rfl)
  rw [e, ms_at]
  exact normed_eq_div (fun k => x0 (ix3 i s k)) k

/-- The kept-axis column of activation scales at row `(i, s)`. -/
theorem scale_at (i : Fin 8) (s : Fin 2048) (u : Fin 1) : val_main_v25 (F := Ideal) x0 (ix3 i s u) = scale fun k => x0 (ix3 i s k) := by
  rw [val_main_v25_apply, val_main_v23_apply, val_main_v24_apply, val_main_cst_8_apply]
  have e : idx_main_v23 (ix3 i s u) = ix2 i s := funext fun a => Fin.ext (by match a with | ⟨0, _⟩ => rfl | ⟨1, _⟩ => rfl)
  rw [e]
  unfold val_main_v22 scale
  rw [hostRowMax3_apply (val_main_v21 (F := Ideal) x0) (val_main_cst_7 (F := Ideal)) reducesTo_S8x2048x2048_S8x2048_d2 (by decide) h_S_ i s]
  have ef : (fun k : Fin 2048 => val_main_v21 (F := Ideal) x0 (ix3 i s k))
      = fun k => max (normed (fun k => x0 (ix3 i s k)) k) (-(normed (fun k => x0 (ix3 i s k)) k)) :=
    funext fun k => by
      show max (val_main_v9 (F := Ideal) x0 (ix3 i s k)) (-(val_main_v9 (F := Ideal) x0 (ix3 i s k))) = _
      rw [xn_at]
  rw [ef]
  rfl

/-- The clipped, rounded activation at `(i, s, k)`. -/
theorem quant_at (i : Fin 8) (s k : Fin 2048) : val_main_v31 (F := Ideal) x0 (ix3 i s k) = quant (fun k => x0 (ix3 i s k)) k := by
  rw [val_main_v31_apply, val_main_call3_v4_apply, val_main_call3_v3_apply, val_main_cst_11_apply, val_main_call3_v2_apply,
    val_main_call3_v1_apply, val_main_call3_v0_apply, val_main_cst_10_apply, val_main_v30_apply, val_main_v29_apply,
    val_main_v28_apply, val_main_v27_apply, val_main_v26_apply, val_main_cst_9_apply]
  have e : idx_main_v28 (ix3 i s k) = ix3 i s (0 : Fin 1) := funext fun a => Fin.ext (by match a with | ⟨0, _⟩ => rfl | ⟨1, _⟩ => rfl | ⟨2, _⟩ => rfl)
  rw [e, xn_at, scale_at]
  exact quant_eq_div (fun k => x0 (ix3 i s k)) k

/-! ## The result -/

/-- The reference's last stage is the layer function of the arguments. -/
theorem result_eq : val_main_v41 (F := Ideal) x0 x1 x2 = layer x0 x1 x2 := by
  funext j
  obtain ⟨i, s, n, rfl⟩ : ∃ (i : Fin 8) (s n : Fin 2048), j = ix3 i s n := ⟨j 0, j 1, j 2, eq_ix3 j⟩
  rw [layer_ix3, val_main_v41_apply, val_main_v38_apply, val_main_v36_apply, val_main_v32_apply, val_main_v35_apply,
    val_main_v34_apply, val_main_v33_apply, val_main_v37_apply, val_main_v40_apply, val_main_v39_apply]
  have e1 : idx_main_v33 (idx_main_v34 (idx_main_v35 (ix3 i s n))) = ix2 n (0 : Fin 1) :=
    funext fun a => Fin.ext (by match a with | ⟨0, _⟩ => exact Nat.div_one _ | ⟨1, _⟩ => rfl)
  have e2 : idx_main_v37 (ix3 i s n) = ix3 i s (0 : Fin 1) := funext fun a => Fin.ext (by match a with | ⟨0, _⟩ => rfl | ⟨1, _⟩ => rfl | ⟨2, _⟩ => rfl)
  have e3 : idx_main_v39 (idx_main_v40 (ix3 i s n)) = ix1 n := funext fun a => Fin.ext (by match a with | ⟨0, _⟩ => rfl)
  rw [e1, e2, e3, gamma_at, scale_at]
  unfold entry
  refine congrArg (fun t : EReal => t * absMean (fun k => x1 (ix2 n k)) * scale (fun k => x0 (ix3 i s k)) + x2 (ix1 n))
    (Finset.sum_congr rfl fun k _ => ?_)
  have el : lidx_main_v32 (ix3 i s n) k = ix3 i s k := funext fun a => Fin.ext (by match a with | ⟨0, _⟩ => rfl | ⟨1, _⟩ => rfl | ⟨2, _⟩ => rfl)
  have er : ridx_main_v32 (ix3 i s n) k = ix2 n k := funext fun a => Fin.ext (by match a with | ⟨0, _⟩ => rfl | ⟨1, _⟩ => rfl)
  rw [el, er, quant_at, tern_at]

end Cert.ReferenceIdeal.RefValue

end
-- ==== Proof.lean ====
/-
  The quantized linear layer: a two-kernel implementation against its array-level reference, on the extended reals.

  Both programs compute, for activations `x` [8, 2048, 2048], weight `w` [2048, 2048] and bias `b` [2048], the array whose
  entry `(i, s, n)` is `(∑ k, q(i,s,k) · t(n,k)) · γ(n) · σ(i,s) + b(n)`, where `γ(n)` is the mean absolute value of weight
  row `n`, `t(n,·)` that row over `γ(n) + ε` rounded half to even and clamped to [-1, 1], `σ(i,s)` the largest absolute
  value of activation row `(i,s)` after division by its root mean square, over 127, and `q(i,s,·)` that normalized row
  over `σ(i,s) + ε` rounded half to even and clamped to [-127, 127].

  The kernels compute `t` and `γ` once (8 blocks of 256 weight rows), then the output in 32 blocks of 512 flattened
  activation rows; they multiply by reciprocals (`1 / (γ + ε)`, `1 / (σ + ε)`, the reciprocal square root of the mean
  square) where the reference divides. On the extended reals a product with the reciprocal of a nonzero `y` is the
  quotient by `y`, and every such `y` here is a nonnegative quantity plus the positive `ε`; the matrix product and the
  reference's contraction are the same sum; the flattening of the rows is a relabelling. So the two results are one
  function of the arguments, and the precondition is not used for the value.

  The three frames are the generated ones (the reference's from its generated run); the idealization rewrote no
  operation, so its claim is `True`.
-/
import proofs.«180496_j51969104281929_2_alg».proof.Defs
import proofs.«180496_j51969104281929_2_alg».proof.Proof.Gen.Kernel
import proofs.«180496_j51969104281929_2_alg».proof.Proof.Gen.Kernel.Skeleton
import proofs.«180496_j51969104281929_2_alg».proof.Proof.Gen.Kernel.Launch
import proofs.«180496_j51969104281929_2_alg».proof.Proof.Gen.Kernel.Points
import proofs.«180496_j51969104281929_2_alg».proof.Proof.Gen.Kernel.Frame
import proofs.«180496_j51969104281929_2_alg».proof.Proof.Gen.KernelIdeal
import proofs.«180496_j51969104281929_2_alg».proof.Proof.Gen.KernelIdeal.Skeleton
import proofs.«180496_j51969104281929_2_alg».proof.Proof.Gen.KernelIdeal.Launch
import proofs.«180496_j51969104281929_2_alg».proof.Proof.Gen.KernelIdeal.Points
import proofs.«180496_j51969104281929_2_alg».proof.Proof.Gen.KernelIdeal.Frame
import proofs.«180496_j51969104281929_2_alg».proof.Proof.Gen.ReferenceIdeal
import proofs.«180496_j51969104281929_2_alg».proof.Proof.Gen.Pre_finite_inputs
import proofs.«180496_j51969104281929_2_alg».proof.Proof.Gen.ReferenceIdeal.Run
import proofs.«180496_j51969104281929_2_alg».proof.Proof.Gen.ReferenceIdeal.Read
import proofs.«180496_j51969104281929_2_alg».proof.Proof.RunValue
import proofs.«180496_j51969104281929_2_alg».proof.Proof.KernelValue
import proofs.«180496_j51969104281929_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the layer function of the (agreeing) arguments. -/
theorem algebraic : Cert.algebraic_KernelIdeal_ReferenceIdeal := by
  intro m ρ m' ρ' _ hagree
  refine ⟨fun c => Cert.QuantLinear.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.KernelValue.result_eq m ρ c), (h c).2⟩)
      (Cert.KernelIdeal.RunValue.run m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v41_eq, Cert.ReferenceIdeal.RefValue.result_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
